-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S384x128 : Shape := ⟨2, ![384, 128]⟩
abbrev S384 : Shape := ⟨1, ![384]⟩
abbrev S1x128 : Shape := ⟨2, ![1, 128]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1x128 .f32) (main_arg9 : FVec F S1 .f32) (main_v33 : IVec S_ 1) : IVec S_ 1 :=
  let main_v34 : FVec F S1x128 .f32 := Host.absf main_arg8
  let main_cst_12 : FVec F S_ .f32 := constant S_ .f32 0x7F800000#32
  let main_v35 : FVec F S1x128 .f32 := broadcastInDim S1x128 ![] bcast_S_S1x128 main_cst_12
  let main_v36 : IVec S1x128 1 := cmpf .olt main_v34 main_v35
  let main_c_13 : IVec S_ 1 := constantI S_ 1 1#1
  let main_v37 : IVec S_ 1 := (fun x v => Host.reduce IntOp.andi x v reducesTo_S1x128_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S384x128 .f32) (main_arg6 : FVec F S384 .f32) (main_arg7 : FVec F S384 .f32) (main_arg8 : FVec F S1x128 .f32) (main_arg9 : FVec F S1 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S384x128 .f32 := Host.absf main_arg5
  let main_cst_6 : FVec F S_ .f32 := constant S_ .f32 0x7F800000#32
  let main_v20 : FVec F S384x128 .f32 := broadcastInDim S384x128 ![] bcast_S_S384x128 main_cst_6
  let main_v21 : IVec S384x128 1 := cmpf .olt main_v19 main_v20
  let main_c_7 : IVec S_ 1 := constantI S_ 1 1#1
  let main_v22 : IVec S_ 1 := (fun x v => Host.reduce IntOp.andi x v reducesTo_S384x128_S_d0_1 h_S_) main_v21 main_c_7
  let main_v23 : IVec S_ 1 := andi main_v18 main_v22
  let main_v24 : FVec F S384 .f32 := Host.absf main_arg6
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S384 .f32 := Host.absf main_arg7
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S1600000 .f32) (main_arg3 : FVec F S128x128 .f32) (main_arg4 : FVec F S384x128 .f32) (main_arg5 : FVec F S384x128 .f32) (main_arg6 : FVec F S384 .f32) (main_arg7 : FVec F S384 .f32) (main_arg8 : FVec F S1x128 .f32) (main_arg9 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S384x128 .f32 := Host.absf main_arg4
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S384x128 : Shape := ⟨2, ![384, 128]⟩
abbrev S384 : Shape := ⟨1, ![384]⟩
abbrev S1x128 : Shape := ⟨2, ![1, 128]⟩
abbrev S1 : Shape := ⟨1, ![1]⟩
abbrev S128x384 : Shape := ⟨2, ![128, 384]⟩
abbrev S1x384 : Shape := ⟨2, ![1, 384]⟩
abbrev S_ : Shape := ⟨0, ![]⟩
abbrev S10000x128 : Shape := ⟨2, ![10000, 128]⟩
abbrev S1x1600000 : Shape := ⟨2, ![1, 1600000]⟩
abbrev S100000 : Shape := ⟨1, ![100000]⟩
abbrev S1700000 : Shape := ⟨1, ![1700000]⟩
abbrev S1700000x1 : Shape := ⟨2, ![1700000, 1]⟩
abbrev S1700000x128 : Shape := ⟨2, ![1700000, 128]⟩
abbrev S128x1 : Shape := ⟨2, ![128, 1]⟩
abbrev S1x1 : Shape := ⟨2, ![1, 1]⟩
abbrev S100000x1 : Shape := ⟨2, ![100000, 1]⟩
abbrev S10000x1 : Shape := ⟨2, ![10000, 1]⟩

abbrev nBuf : Space → Nat
  | .hbm => 116
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S384x128, .f32⟩
  | .hbm, ⟨5, _⟩ => ⟨S384x128, .f32⟩
  | .hbm, ⟨6, _⟩ => ⟨S384, .f32⟩
  | .hbm, ⟨7, _⟩ => ⟨S384, .f32⟩
  | .hbm, ⟨8, _⟩ => ⟨S1x128, .f32⟩
  | .hbm, ⟨9, _⟩ => ⟨S1, .f32⟩
  | .hbm, ⟨10, _⟩ => ⟨S128x384, .f32⟩
  | .hbm, ⟨11, _⟩ => ⟨S128x384, .f32⟩
  | .hbm, ⟨12, _⟩ => ⟨S1x384, .f32⟩
  | .hbm, ⟨13, _⟩ => ⟨S128x384, .f32⟩
  | .hbm, ⟨14, _⟩ => ⟨S128x384, .f32⟩
  | .hbm, ⟨15, _⟩ => ⟨S128x384, .f32⟩
  | .hbm, ⟨16, _⟩ => ⟨S128x384, .f32⟩
  | .hbm, ⟨17, _⟩ => ⟨S1x384, .f32⟩
  | .hbm, ⟨18, _⟩ => ⟨S128x384, .f32⟩
  | .hbm, ⟨19, _⟩ => ⟨S128x384, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S128x128, .f32⟩
  | .hbm, ⟨24, _⟩ => ⟨S128x128, .f32⟩
  | .hbm, ⟨25, _⟩ => ⟨S128x128, .f32⟩
  | .hbm, ⟨26, _⟩ => ⟨S128x128, .f32⟩
  | .hbm, ⟨27, _⟩ => ⟨S128x128, .f32⟩
  | .hbm, ⟨28, _⟩ => ⟨S128x128, .f32⟩
  | .hbm, ⟨29, _⟩ => ⟨S_, .f32⟩
  | .hbm, ⟨30, _⟩ => ⟨S128x128, .f32⟩
  | .hbm, ⟨31, _⟩ => ⟨S128x128, .f32⟩
  | .hbm, ⟨32, _⟩ => ⟨S_, .f32⟩
  | .hbm, ⟨33, _⟩ => ⟨S128x128, .f32⟩
  | .hbm, ⟨34, _⟩ => ⟨S128x128, .f32⟩
  | .hbm, ⟨35, _⟩ => ⟨S128x128, .f32⟩
  | .hbm, ⟨36, _⟩ => ⟨S128x128, .f32⟩
  | .hbm, ⟨37, _⟩ => ⟨S128x128, .f32⟩
  | .hbm, ⟨38, _⟩ => ⟨S_, .f32⟩
  | .hbm, ⟨39, _⟩ => ⟨S128x128, .f32⟩
  | .hbm, ⟨40, _⟩ => ⟨S128x128, .f32⟩
  | .hbm, ⟨41, _⟩ => ⟨S_, .f32⟩
  | .hbm, ⟨42, _⟩ => ⟨S128x128, .f32⟩
  | .hbm, ⟨43, _⟩ => ⟨S128x128, .f32⟩
  | .hbm, ⟨44, _⟩ => ⟨S128x128, .f32⟩
  | .hbm, ⟨45, _⟩ => ⟨S128x128, .f32⟩
  | .hbm, ⟨46, _⟩ => ⟨S128x128, .f32⟩
  | .hbm, ⟨47, _⟩ => ⟨S_, .f32⟩
  | .hbm, ⟨48, _⟩ => ⟨S128x128, .f32⟩
  | .hbm, ⟨49, _⟩ => ⟨S128x128, .f32⟩
  | .hbm, ⟨50, _⟩ => ⟨S128x128, .f32⟩
  | .hbm, ⟨51, _⟩ => ⟨S128x128, .f32⟩
  | .hbm, ⟨52, _⟩ => ⟨S128x128, .f32⟩
  | .hbm, ⟨53, _⟩ => ⟨S100000x128, .f32⟩
  | .hbm, ⟨54, _⟩ => ⟨S1x1600000, .i32⟩
  | .hbm, ⟨55, _⟩ => ⟨S1600000, .i32⟩
  | .hbm, ⟨56, _⟩ => ⟨S1x1600000, .i32⟩
  | .hbm, ⟨57, _⟩ => ⟨S1600000, .i32⟩
  | .hbm, ⟨58, _⟩ => ⟨S100000, .i32⟩
  | .hbm, ⟨59, _⟩ => ⟨S1700000, .i32⟩
  | .hbm, ⟨60, _⟩ => ⟨S1700000, .i32⟩
  | .hbm, ⟨61, _⟩ => ⟨S_, .f32⟩
  | .hbm, ⟨62, _⟩ => ⟨S100000, .f32⟩
  | .hbm, ⟨63, _⟩ => ⟨S1700000, .f32⟩
  | .hbm, ⟨64, _⟩ => ⟨S_, .f32⟩
  | .hbm, ⟨65, _⟩ => ⟨S100000, .f32⟩
  | .hbm, ⟨66, _⟩ => ⟨S1700000x1, .i32⟩
  | .hbm, ⟨67, _⟩ => ⟨S100000, .f32⟩
  | .hbm, ⟨68, _⟩ => ⟨S_, .f32⟩
  | .hbm, ⟨69, _⟩ => ⟨S100000, .f32⟩
  | .hbm, ⟨70, _⟩ => ⟨S100000, .i1⟩
  | .hbm, ⟨71, _⟩ => ⟨S100000, .f32⟩
  | .hbm, ⟨72, _⟩ => ⟨S_, .f32⟩
  | .hbm, ⟨73, _⟩ => ⟨S_, .f32⟩
  | .hbm, ⟨74, _⟩ => ⟨S100000, .f32⟩
  | .hbm, ⟨75, _⟩ => ⟨S100000, .f32⟩
  | .hbm, ⟨76, _⟩ => ⟨S_, .i32⟩
  | .hbm, ⟨77, _⟩ => ⟨S1700000, .i32⟩
  | .hbm, ⟨78, _⟩ => ⟨S1700000, .i1⟩
  | .hbm, ⟨79, _⟩ => ⟨S_, .i32⟩
  | .hbm, ⟨80, _⟩ => ⟨S1700000, .i32⟩
  | .hbm, ⟨81, _⟩ => ⟨S1700000, .i32⟩
  | .hbm, ⟨82, _⟩ => ⟨S1700000, .i32⟩
  | .hbm, ⟨83, _⟩ => ⟨S1700000x1, .i32⟩
  | .hbm, ⟨84, _⟩ => ⟨S1700000, .f32⟩
  | .hbm, ⟨85, _⟩ => ⟨S1700000, .f32⟩
  | .hbm, ⟨86, _⟩ => ⟨S_, .i32⟩
  | .hbm, ⟨87, _⟩ => ⟨S1700000, .i32⟩
  | .hbm, ⟨88, _⟩ => ⟨S1700000, .i1⟩
  | .hbm, ⟨89, _⟩ => ⟨S_, .i32⟩
  | .hbm, ⟨90, _⟩ => ⟨S1700000, .i32⟩
  | .hbm, ⟨91, _⟩ => ⟨S1700000, .i32⟩
  | .hbm, ⟨92, _⟩ => ⟨S1700000, .i32⟩
  | .hbm, ⟨93, _⟩ => ⟨S1700000x1, .i32⟩
  | .hbm, ⟨94, _⟩ => ⟨S1700000, .f32⟩
  | .hbm, ⟨95, _⟩ => ⟨S1700000, .f32⟩
  | .hbm, ⟨96, _⟩ => ⟨S1700000x1, .f32⟩
  | .hbm, ⟨97, _⟩ => ⟨S_, .i32⟩
  | .hbm, ⟨98, _⟩ => ⟨S1700000, .i32⟩
  | .hbm, ⟨99, _⟩ => ⟨S1700000, .i1⟩
  | .hbm, ⟨100, _⟩ => ⟨S_, .i32⟩
  | .hbm, ⟨101, _⟩ => ⟨S1700000, .i32⟩
  | .hbm, ⟨102, _⟩ => ⟨S1700000, .i32⟩
  | .hbm, ⟨103, _⟩ => ⟨S1700000, .i32⟩
  | .hbm, ⟨104, _⟩ => ⟨S1700000x1, .i32⟩
  | .hbm, ⟨105, _⟩ => ⟨S1700000x128, .f32⟩
  | .hbm, ⟨106, _⟩ => ⟨S1700000x128, .f32⟩
  | .hbm, ⟨107, _⟩ => ⟨S1700000x128, .f32⟩
  | .hbm, ⟨108, _⟩ => ⟨S_, .f32⟩
  | .hbm, ⟨109, _⟩ => ⟨S100000x128, .f32⟩
  | .hbm, ⟨110, _⟩ => ⟨S1700000x1, .i32⟩
  | .hbm, ⟨111, _⟩ => ⟨S100000x128, .f32⟩
  | .hbm, ⟨112, _⟩ => ⟨S128x1, .f32⟩
  | .hbm, ⟨113, _⟩ => ⟨S1x1, .f32⟩
  | .hbm, ⟨114, _⟩ => ⟨S100000x1, .f32⟩
  | .hbm, ⟨115, _⟩ => ⟨S100000, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x1, .f32⟩
  | .local _ .vmem, ⟨8, _⟩ => ⟨S1x1, .f32⟩
  | .local _ .vmem, ⟨9, _⟩ => ⟨S10000x1, .f32⟩
  | .local _ .vmem, ⟨10, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_4 : Ref sig .tc := ⟨.hbm, 61, rfl⟩
abbrev main_v46 : Ref sig .tc := ⟨.hbm, 62, rfl⟩
abbrev main_v47 : Ref sig .tc := ⟨.hbm, 63, rfl⟩
abbrev main_cst_5 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_6 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_7 : Ref sig .tc := ⟨.hbm, 72, rfl⟩
abbrev main_call0_v0 : Ref sig .tc := ⟨.hbm, 73, rfl⟩
abbrev main_call0_v1 : Ref sig .tc := ⟨.hbm, 74, rfl⟩
abbrev main_v54 : Ref sig .tc := ⟨.hbm, 75, rfl⟩
abbrev main_c : Ref sig .tc := ⟨.hbm, 76, rfl⟩
abbrev main_v55 : Ref sig .tc := ⟨.hbm, 77, rfl⟩
abbrev main_v56 : Ref sig .tc := ⟨.hbm, 78, rfl⟩
abbrev main_c_8 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c_9 : Ref sig .tc := ⟨.hbm, 86, rfl⟩
abbrev main_v63 : Ref sig .tc := ⟨.hbm, 87, rfl⟩
abbrev main_v64 : Ref sig .tc := ⟨.hbm, 88, rfl⟩
abbrev main_c_10 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_11 : Ref sig .tc := ⟨.hbm, 97, rfl⟩
abbrev main_v72 : Ref sig .tc := ⟨.hbm, 98, rfl⟩
abbrev main_v73 : Ref sig .tc := ⟨.hbm, 99, rfl⟩
abbrev main_c_12 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_13 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S384x128_S128x384_1_0 : S384x128.Transposes [1, 0] S128x384
  bcast_S384_S1x384_1 : S384.BroadcastsInDim S1x384 (![1] : Fin 1 → Fin S1x384.rank)
  bcast_S1x384_S128x384_0_1 : S1x384.BroadcastsInDim S128x384 (![0, 1] : Fin 2 → Fin S128x384.rank)
  slices_S128x384_S128x128_0_0 : S128x384.Slices ![0, 0] S128x128
  slices_S128x384_S128x128_0_128 : S128x384.Slices ![0, 128] S128x128
  slices_S128x384_S128x128_0_256 : S128x384.Slices ![0, 256] S128x128
  bcast_S_S128x128 : S_.BroadcastsInDim S128x128 (![] : Fin 0 → Fin S128x128.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  transposes_S1x128_S128x1_1_0 : S1x128.Transposes [1, 0] S128x1
  shapeCasts_S1_S1x1 : S1.ShapeCasts S1x1
  shapeCasts_S10000x128_S10000x128 : S10000x128.ShapeCasts S10000x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S100000x1_S100000 : S100000x1.ShapeCasts S100000
  dot_S128x128_S128x384_S128x384_1_0_0_1_n_n_wf : DotDims.WF S128x128 S128x384 S128x384 [1] [0] [0] [1] [] []
  dot_S10000x128_S128x128_S10000x128_1_0_0_1_n_n_wf : DotDims.WF S10000x128 S128x128 S10000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x1_S10000x1_1_0_0_1_n_n_wf : DotDims.WF S10000x128 S128x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x1.size a ≤ S128x1.size a
  hwx1_1 : ∀ i : grid1.Coords, EltTy.bits .f32 = 32 ∨ (Rect.block (s := S128x1) S128x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x1.size a ≤ S100000x1.size a
  hwx1_3 : ∀ i : grid1.Coords, EltTy.bits .f32 = 32 ∨ (Rect.block (s := S100000x1) S10000x1.size (cc1_transform_3 i) (hinb1_3 i)).WholeWords (EltTy.packing .f32)

variable [Facts₀]

def dot_S128x128_S128x384_S128x384_1_0_0_1_n_n : DotDims S128x128 S128x384 S128x384 where
  lhsContracting := [1]
  rhsContracting := [0]
  lhsNonContracting := [0]
  rhsNonContracting := [1]
  lhsBatch := []
  rhsBatch := []
  wf := dot_S128x128_S128x384_S128x384_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v38) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v83) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v84) S128x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v85) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v86) S10000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S384x128 : Shape := ⟨2, ![384, 128]⟩
abbrev S384 : Shape := ⟨1, ![384]⟩
abbrev S1x128 : Shape := ⟨2, ![1, 128]⟩
abbrev S1 : Shape := ⟨1, ![1]⟩
abbrev S128x384 : Shape := ⟨2, ![128, 384]⟩
abbrev S1x384 : Shape := ⟨2, ![1, 384]⟩
abbrev S_ : Shape := ⟨0, ![]⟩
abbrev S1x1600000 : Shape := ⟨2, ![1, 1600000]⟩
abbrev S100000 : Shape := ⟨1, ![100000]⟩
abbrev S1700000 : Shape := ⟨1, ![1700000]⟩
abbrev S1700000x1 : Shape := ⟨2, ![1700000, 1]⟩
abbrev S1700000x128 : Shape := ⟨2, ![1700000, 128]⟩
abbrev S128x1 : Shape := ⟨2, ![128, 1]⟩
abbrev S100000x1 : Shape := ⟨2, ![100000, 1]⟩
abbrev S1x1 : Shape := ⟨2, ![1, 1]⟩

abbrev nBuf : Space → Nat
  | .hbm => 121
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S384x128, .f32⟩
  | .hbm, ⟨5, _⟩ => ⟨S384x128, .f32⟩
  | .hbm, ⟨6, _⟩ => ⟨S384, .f32⟩
  | .hbm, ⟨7, _⟩ => ⟨S384, .f32⟩
  | .hbm, ⟨8, _⟩ => ⟨S1x128, .f32⟩
  | .hbm, ⟨9, _⟩ => ⟨S1, .f32⟩
  | .hbm, ⟨10, _⟩ => ⟨S128x384, .f32⟩
  | .hbm, ⟨11, _⟩ => ⟨S128x384, .f32⟩
  | .hbm, ⟨12, _⟩ => ⟨S1x384, .f32⟩
  | .hbm, ⟨13, _⟩ => ⟨S128x384, .f32⟩
  | .hbm, ⟨14, _⟩ => ⟨S128x384, .f32⟩
  | .hbm, ⟨15, _⟩ => ⟨S128x384, .f32⟩
  | .hbm, ⟨16, _⟩ => ⟨S128x384, .f32⟩
  | .hbm, ⟨17, _⟩ => ⟨S1x384, .f32⟩
  | .hbm, ⟨18, _⟩ => ⟨S128x384, .f32⟩
  | .hbm, ⟨19, _⟩ => ⟨S128x384, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S128x128, .f32⟩
  | .hbm, ⟨24, _⟩ => ⟨S128x128, .f32⟩
  | .hbm, ⟨25, _⟩ => ⟨S128x128, .f32⟩
  | .hbm, ⟨26, _⟩ => ⟨S128x128, .f32⟩
  | .hbm, ⟨27, _⟩ => ⟨S128x128, .f32⟩
  | .hbm, ⟨28, _⟩ => ⟨S128x128, .f32⟩
  | .hbm, ⟨29, _⟩ => ⟨S_, .f32⟩
  | .hbm, ⟨30, _⟩ => ⟨S128x128, .f32⟩
  | .hbm, ⟨31, _⟩ => ⟨S128x128, .f32⟩
  | .hbm, ⟨32, _⟩ => ⟨S_, .f32⟩
  | .hbm, ⟨33, _⟩ => ⟨S128x128, .f32⟩
  | .hbm, ⟨34, _⟩ => ⟨S128x128, .f32⟩
  | .hbm, ⟨35, _⟩ => ⟨S128x128, .f32⟩
  | .hbm, ⟨36, _⟩ => ⟨S128x128, .f32⟩
  | .hbm, ⟨37, _⟩ => ⟨S128x128, .f32⟩
  | .hbm, ⟨38, _⟩ => ⟨S_, .f32⟩
  | .hbm, ⟨39, _⟩ => ⟨S128x128, .f32⟩
  | .hbm, ⟨40, _⟩ => ⟨S128x128, .f32⟩
  | .hbm, ⟨41, _⟩ => ⟨S_, .f32⟩
  | .hbm, ⟨42, _⟩ => ⟨S128x128, .f32⟩
  | .hbm, ⟨43, _⟩ => ⟨S128x128, .f32⟩
  | .hbm, ⟨44, _⟩ => ⟨S128x128, .f32⟩
  | .hbm, ⟨45, _⟩ => ⟨S128x128, .f32⟩
  | .hbm, ⟨46, _⟩ => ⟨S128x128, .f32⟩
  | .hbm, ⟨47, _⟩ => ⟨S_, .f32⟩
  | .hbm, ⟨48, _⟩ => ⟨S128x128, .f32⟩
  | .hbm, ⟨49, _⟩ => ⟨S128x128, .f32⟩
  | .hbm, ⟨50, _⟩ => ⟨S128x128, .f32⟩
  | .hbm, ⟨51, _⟩ => ⟨S128x128, .f32⟩
  | .hbm, ⟨52, _⟩ => ⟨S128x128, .f32⟩
  | .hbm, ⟨53, _⟩ => ⟨S1x1600000, .i32⟩
  | .hbm, ⟨54, _⟩ => ⟨S1600000, .i32⟩
  | .hbm, ⟨55, _⟩ => ⟨S1x1600000, .i32⟩
  | .hbm, ⟨56, _⟩ => ⟨S1600000, .i32⟩
  | .hbm, ⟨57, _⟩ => ⟨S100000, .i32⟩
  | .hbm, ⟨58, _⟩ => ⟨S1700000, .i32⟩
  | .hbm, ⟨59, _⟩ => ⟨S1700000, .i32⟩
  | .hbm, ⟨60, _⟩ => ⟨S_, .f32⟩
  | .hbm, ⟨61, _⟩ => ⟨S100000, .f32⟩
  | .hbm, ⟨62, _⟩ => ⟨S1700000, .f32⟩
  | .hbm, ⟨63, _⟩ => ⟨S_, .f32⟩
  | .hbm, ⟨64, _⟩ => ⟨S100000, .f32⟩
  | .hbm, ⟨65, _⟩ => ⟨S1700000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .i1⟩
  | .hbm, ⟨70, _⟩ => ⟨S100000, .f32⟩
  | .hbm, ⟨71, _⟩ => ⟨S_, .f32⟩
  | .hbm, ⟨72, _⟩ => ⟨S_, .f32⟩
  | .hbm, ⟨73, _⟩ => ⟨S100000, .f32⟩
  | .hbm, ⟨74, _⟩ => ⟨S100000, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000, .f32⟩
  | .hbm, ⟨84, _⟩ => ⟨S1700000, .f32⟩
  | .hbm, ⟨85, _⟩ => ⟨S_, .i32⟩
  | .hbm, ⟨86, _⟩ => ⟨S1700000, .i32⟩
  | .hbm, ⟨87, _⟩ => ⟨S1700000, .i1⟩
  | .hbm, ⟨88, _⟩ => ⟨S_, .i32⟩
  | .hbm, ⟨89, _⟩ => ⟨S1700000, .i32⟩
  | .hbm, ⟨90, _⟩ => ⟨S1700000, .i32⟩
  | .hbm, ⟨91, _⟩ => ⟨S1700000, .i32⟩
  | .hbm, ⟨92, _⟩ => ⟨S1700000x1, .i32⟩
  | .hbm, ⟨93, _⟩ => ⟨S1700000, .f32⟩
  | .hbm, ⟨94, _⟩ => ⟨S1700000, .f32⟩
  | .hbm, ⟨95, _⟩ => ⟨S100000x128, .f32⟩
  | .hbm, ⟨96, _⟩ => ⟨S1700000x1, .f32⟩
  | .hbm, ⟨97, _⟩ => ⟨S_, .i32⟩
  | .hbm, ⟨98, _⟩ => ⟨S1700000, .i32⟩
  | .hbm, ⟨99, _⟩ => ⟨S1700000, .i1⟩
  | .hbm, ⟨100, _⟩ => ⟨S_, .i32⟩
  | .hbm, ⟨101, _⟩ => ⟨S1700000, .i32⟩
  | .hbm, ⟨102, _⟩ => ⟨S1700000, .i32⟩
  | .hbm, ⟨103, _⟩ => ⟨S1700000, .i32⟩
  | .hbm, ⟨104, _⟩ => ⟨S1700000x1, .i32⟩
  | .hbm, ⟨105, _⟩ => ⟨S1700000x128, .f32⟩
  | .hbm, ⟨106, _⟩ => ⟨S1700000x128, .f32⟩
  | .hbm, ⟨107, _⟩ => ⟨S1700000x128, .f32⟩
  | .hbm, ⟨108, _⟩ => ⟨S_, .f32⟩
  | .hbm, ⟨109, _⟩ => ⟨S100000x128, .f32⟩
  | .hbm, ⟨110, _⟩ => ⟨S1700000x1, .i32⟩
  | .hbm, ⟨111, _⟩ => ⟨S100000x128, .f32⟩
  | .hbm, ⟨112, _⟩ => ⟨S_, .f32⟩
  | .hbm, ⟨113, _⟩ => ⟨S100000x128, .f32⟩
  | .hbm, ⟨114, _⟩ => ⟨S100000x128, .f32⟩
  | .hbm, ⟨115, _⟩ => ⟨S128x1, .f32⟩
  | .hbm, ⟨116, _⟩ => ⟨S100000x1, .f32⟩
  | .hbm, ⟨117, _⟩ => ⟨S1x1, .f32⟩
  | .hbm, ⟨118, _⟩ => ⟨S100000x1, .f32⟩
  | .hbm, ⟨119, _⟩ => ⟨S100000x1, .f32⟩
  | .hbm, ⟨120, _⟩ => ⟨S100000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_4 : Ref sig .tc := ⟨.hbm, 60, rfl⟩
abbrev main_v45 : Ref sig .tc := ⟨.hbm, 61, rfl⟩
abbrev main_v46 : Ref sig .tc := ⟨.hbm, 62, rfl⟩
abbrev main_cst_5 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_6 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_7 : Ref sig .tc := ⟨.hbm, 71, rfl⟩
abbrev main_call0_v0 : Ref sig .tc := ⟨.hbm, 72, rfl⟩
abbrev main_call0_v1 : Ref sig .tc := ⟨.hbm, 73, rfl⟩
abbrev main_v53 : Ref sig .tc := ⟨.hbm, 74, rfl⟩
abbrev main_c : Ref sig .tc := ⟨.hbm, 75, rfl⟩
abbrev main_v54 : Ref sig .tc := ⟨.hbm, 76, rfl⟩
abbrev main_v55 : Ref sig .tc := ⟨.hbm, 77, rfl⟩
abbrev main_c_8 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_9 : Ref sig .tc := ⟨.hbm, 85, rfl⟩
abbrev main_v62 : Ref sig .tc := ⟨.hbm, 86, rfl⟩
abbrev main_v63 : Ref sig .tc := ⟨.hbm, 87, rfl⟩
abbrev main_c_10 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_11 : Ref sig .tc := ⟨.hbm, 97, rfl⟩
abbrev main_v72 : Ref sig .tc := ⟨.hbm, 98, rfl⟩
abbrev main_v73 : Ref sig .tc := ⟨.hbm, 99, rfl⟩
abbrev main_c_12 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_13 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_call1_cst : Ref sig .tc := ⟨.hbm, 112, rfl⟩
abbrev main_call1_v0 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩

abbrev nD : Nat := 1
abbrev τ : Topo := Topo.v7x

variable {F : FTy → Type} [FloatOps F]

class Facts₀ : Prop where
  transposes_S384x128_S128x384_1_0 : S384x128.Transposes [1, 0] S128x384
  bcast_S384_S1x384_1 : S384.BroadcastsInDim S1x384 (![1] : Fin 1 → Fin S1x384.rank)
  bcast_S1x384_S128x384_0_1 : S1x384.BroadcastsInDim S128x384 (![0, 1] : Fin 2 → Fin S128x384.rank)
  slices_S128x384_S128x128_0_0 : S128x384.Slices ![0, 0] S128x128
  slices_S128x384_S128x128_0_128 : S128x384.Slices ![0, 128] S128x128
  slices_S128x384_S128x128_0_256 : S128x384.Slices ![0, 256] S128x128
  bcast_S_S128x128 : S_.BroadcastsInDim S128x128 (![] : Fin 0 → Fin S128x128.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  transposes_S1x128_S128x1_1_0 : S1x128.Transposes [1, 0] S128x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  dot_S128x128_S128x384_S128x384_1_0_0_1_n_n_wf : DotDims.WF S128x128 S128x384 S128x384 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x1_S100000x1_1_0_0_1_n_n_wf : DotDims.WF S100000x128 S128x1 S100000x1 [1] [0] [0] [1] [] []

variable [Facts₀]

def dot_S128x128_S128x384_S128x384_1_0_0_1_n_n : DotDims S128x128 S128x384 S128x384 where
  lhsContracting := [1]
  rhsContracting := [0]
  lhsNonContracting := [0]
  rhsNonContracting := [1]
  lhsBatch := []
  rhsBatch := []
  wf := dot_S128x128_S128x384_S128x384_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.ResultRun.lean ====
/-
  The idealized kernel's run, with its result named.

  @main of the kernel is seven segments: the host operations that evolve the weight, the projection region, the
  host operations that normalize and aggregate over the graph (three stretches), the head region, and one final
  reshape.  The frame proof of the program follows the buffer contents through these segments as a fold
  W0, W1, …, W7 from the launch memory: a host stretch applies its operations to the contents, a region replaces
  its windows' arrays by what its write-backs leave and keeps every other buffer.  Every weakly fair execution
  terminates with every buffer at the last contents W7; the frame proof reads only the ten argument buffers out
  of that.  Here the same run is read at the result buffer as well: it ends holding W7 at the result, and the
  arguments are unchanged.
-/
import proofs.«137513_j44452911514152_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the implicit arguments of the library's theorem on runs of segments are found by unifying its conclusion with
-- the statement, which takes unfolding plain definitions in a metavariable's type
set_option backward.isDefEq.respectTransparency.types false in
/-- Every weakly fair execution of @main terminates, nothing faulting; the result buffer ends at the last
    boundary's contents, and the arguments end as launched.  The segments, their chaining and the launch are the
    frame proof's; only what is read out of the final thread state differs: every unscoped buffer holds W7 there,
    the result buffer among them. -/
theorem run_result : θ_run defs (onTc (τ := τ) (main (F := F))) ⟨m, fun _ => 0, ρ⟩ (fun r => ∀ c : Dev nD,
      r.2.mem ((c.tc : Thread nD τ).loc main_v87) = W7 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v87 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c)⟩)

end Cert.KernelIdeal.ResultRun

end
-- ==== Proof.Stretches.lean ====
/-
  The host operations of the kernel's @main, stretch by stretch, read against the reference's.

  Outside its two regions the kernel's @main is the reference's own text: the operations that evolve the weight
  (one step of a gated recurrent unit on the 128 × 128 initial weight), and the operations that normalize the
  graph's edges and aggregate the projected features over them (degrees by a scatter-add, the reciprocal square
  root where the degree is positive, two gathers of it along the edges, a gather of the projected rows, and a
  scatter-add into the target rows).  The reference's generated read-back names every stage of that text as a
  function of @main's arguments.  Here each stretch of the kernel's @main is evaluated from ARBITRARY buffer
  contents Wb and found to be the corresponding stage of the reference, applied to Wb at the buffers the stretch
  reads.  The aggregation is needed as a function of the projected features, whichever program computed them:
  that is `aggregate`, the reference's last four stages with the projection left as a parameter.  Nothing of the
  shared text is ever opened: the two sides are the same operations on the same operands.
-/
import proofs.«137513_j44452911514152_1_alg».proof.Proof.Gen.KernelIdeal.Launch
import proofs.«137513_j44452911514152_1_alg».proof.Proof.Gen.ReferenceIdeal.Read
import Idealize.ShloMosaic.Lib.StableHlo.Run

set_option maxRecDepth 16384

noncomputable section

namespace Cert.Gcn

open Idealize.ShloMosaic Idealize.ShloMosaic.TcCoe Idealize.SL.Sem Idealize.ShloMosaic.StableHlo

variable {F : FTy → Type} [FloatOps F]

/-- The aggregation over the graph as a function of the projected features `xw`, the edge list `x1` and the edge
    weights `x2`: row r of the result is the sum, over the edges (and self loops) whose target is r, of the edge's
    normalized weight times the projected row of the edge's source.  It is the reference's scatter-add of its
    weighted gather, with the gathered array a parameter. -/
def aggregate (xw : (⟨Cert.ReferenceIdeal.S100000x128, .f32⟩ : BufTy).Contents (Elt F)) (x1 : (⟨Cert.ReferenceIdeal.S2x1600000, .i32⟩ : BufTy).Contents (Elt F))
    (x2 : (⟨Cert.ReferenceIdeal.S1600000, .f32⟩ : BufTy).Contents (Elt F)) : (⟨Cert.ReferenceIdeal.S100000x128, .f32⟩ : BufTy).Contents (Elt F) :=
  Host.scatterAdd Cert.ReferenceIdeal.scatter_S100000x128_S1700000x1_S1700000x128_1_0_0_1 (Cert.ReferenceIdeal.Read.val_main_v81 (F := F)) (Cert.ReferenceIdeal.Read.val_main_v82 (F := F) x1)
    (mulf (Cert.ReferenceIdeal.Read.val_main_v79 (F := F) x1 x2)
      (Host.gather Cert.ReferenceIdeal.gather_S100000x128_S1700000x1_S1700000x128_1_0_n_n_0_1_1128 xw (Cert.ReferenceIdeal.Read.val_main_v77 (F := F) x1)))

/-- The reference's aggregated features are `aggregate` of its own projection. -/
theorem ref_aggregate (x0 : (⟨Cert.ReferenceIdeal.S100000x128, .f32⟩ : BufTy).Contents (Elt F)) (x1 : (⟨Cert.ReferenceIdeal.S2x1600000, .i32⟩ : BufTy).Contents (Elt F))
    (x2 : (⟨Cert.ReferenceIdeal.S1600000, .f32⟩ : BufTy).Contents (Elt F)) (x3 : (⟨Cert.ReferenceIdeal.S128x128, .f32⟩ : BufTy).Contents (Elt F))
    (x4 x5 : (⟨Cert.ReferenceIdeal.S384x128, .f32⟩ : BufTy).Contents (Elt F)) (x6 x7 : (⟨Cert.ReferenceIdeal.S384, .f32⟩ : BufTy).Contents (Elt F)) :
    Cert.ReferenceIdeal.Read.val_main_v83 (F := F) x0 x1 x2 x3 x4 x5 x6 x7
      = aggregate (Cert.ReferenceIdeal.Read.val_main_v70 (F := F) x0 x3 x4 x5 x6 x7) x1 x2 := rfl

variable (Wb : Valuation Cert.KernelIdeal.τ Cert.KernelIdeal.sig (Elt F))

/-- The first stretch leaves the evolved weight: the reference's stage of that name, of the five weight arguments. -/
theorem stretch_weight :
    after (Cert.KernelIdeal.Gen.hostOps0 (F := F)) Wb (Proc.devRef .tc Cert.KernelIdeal.main_v37)
      = Cert.ReferenceIdeal.Read.val_main_v37 (F := F) (Wb (Proc.devRef .tc Cert.KernelIdeal.main_arg3)) (Wb (Proc.devRef .tc Cert.KernelIdeal.main_arg4)) (Wb (Proc.devRef .tc Cert.KernelIdeal.main_arg5)) (Wb (Proc.devRef .tc Cert.KernelIdeal.main_arg6)) (Wb (Proc.devRef .tc Cert.KernelIdeal.main_arg7)) := by
  dsimp only [Cert.KernelIdeal.Gen.hostOps0]
  after_results_simp
  rfl

/-- The first stretch writes nothing the projection's input window reads: the node features are as before. -/
theorem stretch_weight_features :
    after (Cert.KernelIdeal.Gen.hostOps0 (F := F)) Wb (Proc.devRef .tc Cert.KernelIdeal.main_arg0) = (Wb (Proc.devRef .tc Cert.KernelIdeal.main_arg0)) := by
  dsimp only [Cert.KernelIdeal.Gen.hostOps0]
  after_results_simp

/-- The first stretch does not write `main_arg1`. -/
theorem stretch_weight_keeps_arg1 :
    after (Cert.KernelIdeal.Gen.hostOps0 (F := F)) Wb (Proc.devRef .tc Cert.KernelIdeal.main_arg1) = (Wb (Proc.devRef .tc Cert.KernelIdeal.main_arg1)) := by
  dsimp only [Cert.KernelIdeal.Gen.hostOps0]
  after_results_simp

/-- The first stretch does not write `main_arg2`. -/
theorem stretch_weight_keeps_arg2 :
    after (Cert.KernelIdeal.Gen.hostOps0 (F := F)) Wb (Proc.devRef .tc Cert.KernelIdeal.main_arg2) = (Wb (Proc.devRef .tc Cert.KernelIdeal.main_arg2)) := by
  dsimp only [Cert.KernelIdeal.Gen.hostOps0]
  after_results_simp

/-- The first stretch does not write `main_arg8`. -/
theorem stretch_weight_keeps_arg8 :
    after (Cert.KernelIdeal.Gen.hostOps0 (F := F)) Wb (Proc.devRef .tc Cert.KernelIdeal.main_arg8) = (Wb (Proc.devRef .tc Cert.KernelIdeal.main_arg8)) := by
  dsimp only [Cert.KernelIdeal.Gen.hostOps0]
  after_results_simp

/-- The first stretch does not write `main_arg9`. -/
theorem stretch_weight_keeps_arg9 :
    after (Cert.KernelIdeal.Gen.hostOps0 (F := F)) Wb (Proc.devRef .tc Cert.KernelIdeal.main_arg9) = (Wb (Proc.devRef .tc Cert.KernelIdeal.main_arg9)) := by
  dsimp only [Cert.KernelIdeal.Gen.hostOps0]
  after_results_simp

end Cert.Gcn

end
-- ==== Proof.StretchesMid.lean ====
/-
  The host operations between and after the kernel's two regions.

  Between the projection and the head the kernel's @main runs three stretches of host operations: the edge list
  is split and extended by the self loops, the degrees are summed and turned into normalizing factors, those are
  gathered along the edges, the projected rows are gathered and weighted, and everything is summed into the
  target rows; the head's 1 × 128 weight is transposed into a column and its bias reshaped to 1 × 1.  Evaluated
  from arbitrary buffer contents Wb, the aggregated rows are `aggregate` of Wb at the projection's result, the
  edge list and the edge weights; the column is the reference's transposed weight; the bias is the reshaped
  argument.  After the head one reshape drops the unit axis of its 100000 × 1 result.
-/
import proofs.«137513_j44452911514152_1_alg».proof.Proof.Stretches

set_option maxRecDepth 16384

noncomputable section

namespace Cert.Gcn

open Idealize.ShloMosaic Idealize.ShloMosaic.TcCoe Idealize.SL.Sem Idealize.ShloMosaic.StableHlo

variable {F : FTy → Type} [FloatOps F]
variable (Wb : Valuation Cert.KernelIdeal.τ Cert.KernelIdeal.sig (Elt F))

/-- The three stretches between the regions leave, at the head's first input, the aggregation of whatever the
    projection's result buffer held, along the edges the arguments give. -/
theorem stretch_aggregate :
    after (Cert.KernelIdeal.Gen.hostOps1_2 (F := F)) (after (Cert.KernelIdeal.Gen.hostOps1_1 (F := F)) (after (Cert.KernelIdeal.Gen.hostOps1 (F := F)) Wb)) (Proc.devRef .tc Cert.KernelIdeal.main_v83)
      = aggregate (Wb (Proc.devRef .tc Cert.KernelIdeal.main_v38)) (Wb (Proc.devRef .tc Cert.KernelIdeal.main_arg1)) (Wb (Proc.devRef .tc Cert.KernelIdeal.main_arg2)) := by
  dsimp only [Cert.KernelIdeal.Gen.hostOps1_2, Cert.KernelIdeal.Gen.hostOps1_1, Cert.KernelIdeal.Gen.hostOps1]
  after_results_simp
  rfl

/-- … at the head's second input, the weight transposed into a column, as the reference transposes it. -/
theorem stretch_column :
    after (Cert.KernelIdeal.Gen.hostOps1_2 (F := F)) (after (Cert.KernelIdeal.Gen.hostOps1_1 (F := F)) (after (Cert.KernelIdeal.Gen.hostOps1 (F := F)) Wb)) (Proc.devRef .tc Cert.KernelIdeal.main_v84)
      = Cert.ReferenceIdeal.Read.val_main_v85 (F := F) (Wb (Proc.devRef .tc Cert.KernelIdeal.main_arg8)) := by
  dsimp only [Cert.KernelIdeal.Gen.hostOps1_2, Cert.KernelIdeal.Gen.hostOps1_1, Cert.KernelIdeal.Gen.hostOps1]
  after_results_simp
  rfl

/-- … and at the head's third input, the one bias as a 1 × 1 array. -/
theorem stretch_bias :
    after (Cert.KernelIdeal.Gen.hostOps1_2 (F := F)) (after (Cert.KernelIdeal.Gen.hostOps1_1 (F := F)) (after (Cert.KernelIdeal.Gen.hostOps1 (F := F)) Wb)) (Proc.devRef .tc Cert.KernelIdeal.main_v85)
      = shapeCast Cert.KernelIdeal.S1x1 (Wb (Proc.devRef .tc Cert.KernelIdeal.main_arg9)) Cert.KernelIdeal.Facts₀.shapeCasts_S1_S1x1 := by
  dsimp only [Cert.KernelIdeal.Gen.hostOps1_2, Cert.KernelIdeal.Gen.hostOps1_1, Cert.KernelIdeal.Gen.hostOps1]
  after_results_simp
  rfl

/-- The last stretch reshapes the head's 100000 × 1 result to the 100000 results. -/
theorem stretch_result :
    after (Cert.KernelIdeal.Gen.hostOps2 (F := F)) Wb (Proc.devRef .tc Cert.KernelIdeal.main_v87)
      = shapeCast Cert.KernelIdeal.S100000 (Wb (Proc.devRef .tc Cert.KernelIdeal.main_v86)) Cert.KernelIdeal.Facts₀.shapeCasts_S100000x1_S100000 := by
  dsimp only [Cert.KernelIdeal.Gen.hostOps2]
  after_results_simp
  rfl

end Cert.Gcn

end
-- ==== Proof.Spec.lean ====
/-
  The two dense products of the network, as plain sums over the extended reals.

  The network multiplies the node features by the evolved weight, aggregates over the graph, and ends in a
  linear head on the rectified aggregate.  The aggregation is the same host text in both programs; what differs
  is how the two products are computed (blocks of rows through the matrix unit, against one whole product on the
  host).  Over the extended reals both are the sums below: entry (p, q) of the projection is the sum over the 128
  features k of x(p, k) · W(k, q), and entry (p, 0) of the head is the sum over k of max(h(p, k), 0) · w(k, 0),
  plus the one bias.  Addition and multiplication of extended reals are commutative and associative, and nothing
  else is used: no entry needs to be finite.
-/
import Idealize.ShloMosaic.PureOps.Ideal
import Idealize.ShloMosaic.Lib.ValueIdx

noncomputable section

open scoped BigOperators

namespace Cert.Gcn

open Idealize.ShloMosaic Idealize.ShloMosaic.ValueIdx

/-- The projection x · W: entry (p, q) is the sum over the features k of x(p, k) · W(k, q). -/
def proj (x : FVec Ideal ⟨2, ![100000, 128]⟩ .f32) (w : FVec Ideal ⟨2, ![128, 128]⟩ .f32) :
    FVec Ideal ⟨2, ![100000, 128]⟩ .f32 :=
  fun i => ∑ k : Fin 128, x (ix2 (⟨(i 0).val, idx2_lt0 i⟩ : Fin 100000) k) * w (ix2 k (⟨(i 1).val, idx2_lt1 i⟩ : Fin 128))

/-- The head on the rectified aggregate: entry (p, 0) is the sum over the features k of max(h(p, k), 0) · w(k, 0),
    plus the bias b(0, 0).  The zero is kept as the word both programs print. -/
def head (h : FVec Ideal ⟨2, ![100000, 128]⟩ .f32) (w : FVec Ideal ⟨2, ![128, 1]⟩ .f32) (b : FVec Ideal ⟨2, ![1, 1]⟩ .f32) :
    FVec Ideal ⟨2, ![100000, 1]⟩ .f32 :=
  fun i => (∑ k : Fin 128, max (h (ix2 (⟨(i 0).val, idx2_lt0 i⟩ : Fin 100000) k)) (Ideal.ofBits .f32 0x00000000#32)
      * w (ix2 k (⟨(i 1).val, idx2_lt1 i⟩ : Fin 1))) + b (ix2 (0 : Fin 1) (0 : Fin 1))

theorem proj_apply (x : FVec Ideal ⟨2, ![100000, 128]⟩ .f32) (w : FVec Ideal ⟨2, ![128, 128]⟩ .f32) (p : Fin 100000) (q : Fin 128) :
    proj x w (ix2 p q) = ∑ k : Fin 128, x (ix2 p k) * w (ix2 k q) := rfl

theorem head_apply (h : FVec Ideal ⟨2, ![100000, 128]⟩ .f32) (w : FVec Ideal ⟨2, ![128, 1]⟩ .f32) (b : FVec Ideal ⟨2, ![1, 1]⟩ .f32)
    (p : Fin 100000) (q : Fin 1) :
    head h w b (ix2 p q) = (∑ k : Fin 128, max (h (ix2 p k)) (Ideal.ofBits .f32 0x00000000#32) * w (ix2 k q)) + b (ix2 (0 : Fin 1) (0 : Fin 1)) := rfl

end Cert.Gcn

end
-- ==== Proof.ProjArray.lean ====
/-
  The projection of the node features, assembled from its blocks of rows.

  The first dense product of the network takes the 100000 × 128 array x of node features and the 128 × 128 weight W
  and produces x · W.  It is computed ten times over, once for each block of 10000 consecutive rows: the step for block
  row b holds rows 10000·b … 10000·b + 9999 of x (all 128 columns) and the whole of W, multiplies them, and writes the
  10000 × 128 result back as rows 10000·b … 10000·b + 9999 of the output.

  Three things are proved here, over the extended reals and for ARBITRARY contents of the arrays when the ten steps
  begin.  First, what one step computes: entry (p, q) of its result is the sum over the 128 features k of
  (row p of the block of x)(k) · W(k, q) — changing the operands' number format and re-reading W at its own shape do
  nothing to an extended real, and the accumulator the product starts from is zero.  So entry (p, q) of a block
  depends on ONE row of x, row 10000·b + p, and on column q of W, and on nothing else.  Second, therefore what step b
  writes back is exactly block b of the one function "entry (r, q) is the sum over k of x(r, k) · W(k, q)" of the whole
  arrays.  Third, the ten blocks cover the output: row r lies in block row r / 10000, which is one of the ten because
  r < 100000, and every column lies in the one block column.  Hence the output array ends as that function, whatever
  it held before.
-/
import proofs.«137513_j44452911514152_1_alg».proof.Proof.Gen.KernelIdeal.Frame
import proofs.«137513_j44452911514152_1_alg».proof.Proof.Spec
import Idealize.ShloMosaic.Lib.Pipeline.Value
import Idealize.ShloMosaic.Lib.ValueIdx
import Idealize.ShloMosaic.PureOps.Ideal.Laws

noncomputable section

namespace Cert.KernelIdeal.ProjArray

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## One step's product, entry by entry -/

/-- The dimension numbers of one step's product: a 10000 × 128 block against the 128 × 128 weight, the block's
    second axis (the features) contracted with the weight's first. -/
abbrev blockDot := dot_S10000x128_S128x128_S10000x128_1_0_0_1_n_n

/-- The left operand is read in the row of the output entry … -/
theorem lhs_row (i : S10000x128.Idx) (k : blockDot.contr.Idx) : (blockDot.lhsIdx i k 0).val = (i 0).val := by
  unfold DotDims.lhsIdx
  rw [dif_neg (show ¬(0 : Fin S10000x128.rank) ∈ blockDot.lhsBatch by decide), dif_pos (show (0 : Fin S10000x128.rank) ∈ blockDot.lhsNonContracting by decide)]
  rfl
/-- … at the feature being summed over; -/
theorem lhs_feature (i : S10000x128.Idx) (k : blockDot.contr.Idx) : (blockDot.lhsIdx i k 1).val = (k ⟨0, by decide⟩).val :=
  blockDot.lhsIdx_val_of_single rfl i k
/-- the right operand is read at that same feature … -/
theorem rhs_feature (i : S10000x128.Idx) (k : blockDot.contr.Idx) : (blockDot.rhsIdx i k 0).val = (k ⟨0, by decide⟩).val :=
  blockDot.rhsIdx_val_of_single rfl i k
/-- … in the column of the output entry. -/
theorem rhs_column (i : S10000x128.Idx) (k : blockDot.contr.Idx) : (blockDot.rhsIdx i k 1).val = (i 1).val := by
  unfold DotDims.rhsIdx
  rw [dif_neg (show ¬(1 : Fin S128x128.rank) ∈ blockDot.rhsBatch by decide), dif_pos (show (1 : Fin S128x128.rank) ∈ blockDot.rhsNonContracting by decide)]
  rfl

/-- Entry (p, q) of what one step stores, from the block x of features and the weight w it holds: the sum over the
    128 features k of x(p, k) · w(k, q).  The sum over the product's own contraction index is re-indexed by the
    feature number; the narrowing of both operands and the re-reading of w at its own shape leave each value as it is;
    the zero the product accumulates into adds nothing. -/
theorem payload_apply (x : Vec Ideal S10000x128 .f32) (w : Vec Ideal S128x128 .f32) (p : Fin 10000) (q : Fin 128) :
    k0_pay1 (F := Ideal) x w (ix2 p q) = ∑ k : Fin 128, x (ix2 p k) * w (ix2 k q) := by
  unfold k0_pay1
  simp only [matmul]
  refine (Ideal.matmul_constant_zero_apply blockDot none _ _ (ix2 p q)).trans ?_
  rw [← Equiv.sum_comp (contrEquiv1 blockDot 128 rfl rfl).symm]
  refine Finset.sum_congr rfl fun k _ => ?_
  have hk := contrEquiv1_symm_val blockDot 128 rfl rfl k
  have el : blockDot.lhsIdx (ix2 p q) ((contrEquiv1 blockDot 128 rfl rfl).symm k) = ix2 p k := funext fun a => Fin.ext (by
    match a with
    | ⟨0, _⟩ => exact lhs_row _ _
    | ⟨1, _⟩ => exact (lhs_feature _ _).trans hk)
  have er : blockDot.rhsIdx (ix2 p q) ((contrEquiv1 blockDot 128 rfl rfl).symm k) = ix2 k q := funext fun a => Fin.ext (by
    match a with
    | ⟨0, _⟩ => exact (rhs_feature _ _).trans hk
    | ⟨1, _⟩ => exact rhs_column _ _)
  rw [el, er, truncf_apply, truncf_apply, shapeCast_self]

/-- The same at any index j of the block, its two coordinates read off as a row number below 10000 and a column
    number below 128. -/
theorem payload_at (x : Vec Ideal S10000x128 .f32) (w : Vec Ideal S128x128 .f32) (j : S10000x128.Idx) :
    k0_pay1 (F := Ideal) x w j
      = ∑ k : Fin 128, x (ix2 (⟨(j 0).val, idx2_lt0 j⟩ : Fin 10000) k) * w (ix2 k (⟨(j 1).val, idx2_lt1 j⟩ : Fin 128)) := by
  obtain ⟨p, q, rfl⟩ : ∃ (p : Fin 10000) (q : Fin 128), j = ix2 p q := ⟨j 0, j 1, eq_ix2 j⟩
  exact payload_apply x w p q

/-! ## What each step writes back -/

/-- The body reads and writes its buffers whole: at offsets zero on both axes. -/
theorem zero_offsets : (![0, 0] : Fin 2 → Nat) = fun _ => 0 := funext fun a => by fin_cases a <;> rfl

/-- Where the blocks sit, decided over the ten steps: the block of node features is in the same block row as the
    output block and in block column zero; the weight is always its one whole block; the output block is in block
    column zero. -/
theorem index_facts : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the ten block rows is some step's output block. -/
theorem index_onto : ∀ b : Fin 10, ∃ t : Fin cfg0.N, win0_2.index t = ![b.val, 0] :=
  (by decide +kernel : ∀ b : Fin 10, ∃ t : Fin grid0.N, win0_2.index t = ![b.val, 0])

/-- What step t writes back is block t of the projection of the two arrays as they stand when the steps begin.
    An element of a block sits in its array, on each axis, at block index × block size + its coordinate inside the
    block.  Entry j of the step's result is the sum over k of (features block)(j₀, k) · (weight block)(k, j₁); the
    features block's element (j₀, k) is the array's element in the output entry's own row and column k, because that
    block shares the output's block row and has block column zero; the weight block's element (k, j₁) is the weight's
    element (k, j₁) itself, the block being the whole array and the output's block column being zero. -/
theorem flushed_eq (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (Cert.Gcn.proj (V c main_arg0) (V c main_v37)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x128) zero_offsets]
  obtain ⟨e0, e1, e2, e3, e4⟩ := index_facts t
  funext j
  show k0_pay1 (F := Ideal) (iblk0 V c 0 t) (iblk0 V c 1 t) j
      = Cert.Gcn.proj (V c main_arg0) (V c main_v37) (((cfg0.win 2).blk t).view.emb j)
  refine (payload_at _ _ j).trans ?_
  refine Finset.sum_congr rfl fun k _ => ?_
  have hx : iblk0 V c 0 t (ix2 (⟨(j 0).val, idx2_lt0 j⟩ : Fin 10000) k)
      = V c main_arg0 (ix2 (⟨((((cfg0.win 2).blk t).view.emb j) 0).val, idx2_lt0 _⟩ : Fin 100000) k) := by
    show V c main_arg0 (((cfg0.win 0).blk t).view.emb (ix2 (⟨(j 0).val, idx2_lt0 j⟩ : Fin 10000) k)) = _
    refine congrArg (V c main_arg0) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have hw : iblk0 V c 1 t (ix2 k (⟨(j 1).val, idx2_lt1 j⟩ : Fin 128))
      = V c main_v37 (ix2 k (⟨((((cfg0.win 2).blk t).view.emb j) 1).val, idx2_lt1 _⟩ : Fin 128)) := by
    show V c main_v37 (((cfg0.win 1).blk t).view.emb (ix2 k (⟨(j 1).val, idx2_lt1 j⟩ : Fin 128))) = _
    refine congrArg (V c main_v37) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [hx, hw]

/-! ## The blocks cover the array -/

/-- An index of the output array is in step t's block iff each coordinate is in the block's range on its axis:
    from block index × block size up to, not including, one block size further. -/
theorem mem_block (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v38).slice (win0_2.rect t)).set ↔ _
  rw [View.set_slice_whole, Rect.mem_set_unit]
  exact Iff.rfl

/-- Every index of the output array is in the block of a step that writes back: row r is in block row r / 10000,
    which is below ten because r is below 100000, and 10000 · (r / 10000) ≤ r < 10000 · (r / 10000) + 10000; every
    column is below 128, the width of the one block column. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := index_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-! ## The array -/

/-- After the ten steps, whatever the arrays held when they began, the output array is the projection of the
    node features by the weight as they stood then: every step writes its block of that one function, and the blocks
    cover the array, so a later step that met an entry again could only have written the same value. -/
theorem proj_array (V : (c : Dev nD) → (b : Ref sig .tc) → Buf (Elt Ideal) ((c : Thread nD τ).loc b)) (c : Dev nD) :
    (dat0 (F := Ideal) V c).arrAt 2 cfg0.N = Cert.Gcn.proj (V c main_arg0) (V c main_v37) :=
  (dat0 V c).arrAt_eq_of_cover 2 _ (fun t _ => flushed_eq V c t) covered

end Cert.KernelIdeal.ProjArray

end
-- ==== Proof.HeadArray.lean ====
/-
  The head region, from its blocks to the whole array.

  The region computes the head  max(h, 0) · w + b  of the aggregate h (100000 × 128), the column w (128 × 1) and the
  bias b (1 × 1) in ten steps.  A block is 10000 consecutive rows: at grid point t the body reads rows
  10000 · n, …, 10000 · n + 9999 of h, where n is the block index the point's index map gives (the same for h and
  for the result), together with the whole of w and of b, and writes the 10000 × 1 block n of the result back.
  Entry (y, 0) of that block is the sum over the 128 features k of max(h(10000 · n + y, k), 0) · w(k, 0), plus
  b(0, 0): it depends on one row of h only, the row with the same number in the whole array, so what the point
  writes is exactly block n of the head taken over the whole arrays.  The block indices of the ten points are
  0, …, 9, so row r of the result lies in the block of index r / 10000: the blocks cover the array, and the array
  after the region is the head.  Nothing is assumed of the contents the region finds: every statement is for
  arbitrary entry contents V.
-/
import proofs.«137513_j44452911514152_1_alg».proof.Proof.Gen.KernelIdeal.Frame
import proofs.«137513_j44452911514152_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.HeadArray

open Cert.KernelIdeal Cert.KernelIdeal.Gen
open Idealize.ShloMosaic Idealize.ShloMosaic.TcCoe Idealize.SL.Sem Idealize.ShloMosaic.ValueIdx
open Idealize.ShloMosaic.Pipeline (Dat)

/-! ## One block: the body's value at an index -/

/-- The left operand's index of the block product at output (p, ·) and contraction index q: row p … -/
theorem lhs_row (i : S10000x1.Idx) (q : dot_S10000x128_S128x1_S10000x1_1_0_0_1_n_n.contr.Idx) :
    (dot_S10000x128_S128x1_S10000x1_1_0_0_1_n_n.lhsIdx i q 0).val = (i 0).val := by
  unfold DotDims.lhsIdx
  rw [dif_neg (show ¬(0 : Fin S10000x128.rank) ∈ dot_S10000x128_S128x1_S10000x1_1_0_0_1_n_n.lhsBatch by decide), dif_pos (show (0 : Fin S10000x128.rank) ∈ dot_S10000x128_S128x1_S10000x1_1_0_0_1_n_n.lhsNonContracting by decide)]
  rfl
/-- … and the contracted feature as its column. -/
theorem lhs_col (i : S10000x1.Idx) (q : dot_S10000x128_S128x1_S10000x1_1_0_0_1_n_n.contr.Idx) :
    (dot_S10000x128_S128x1_S10000x1_1_0_0_1_n_n.lhsIdx i q 1).val = (q ⟨0, by decide⟩).val :=
  dot_S10000x128_S128x1_S10000x1_1_0_0_1_n_n.lhsIdx_val_of_single rfl i q
/-- The right operand's index: the contracted feature as its row … -/
theorem rhs_row (i : S10000x1.Idx) (q : dot_S10000x128_S128x1_S10000x1_1_0_0_1_n_n.contr.Idx) :
    (dot_S10000x128_S128x1_S10000x1_1_0_0_1_n_n.rhsIdx i q 0).val = (q ⟨0, by decide⟩).val :=
  dot_S10000x128_S128x1_S10000x1_1_0_0_1_n_n.rhsIdx_val_of_single rfl i q
/-- … and the output's column. -/
theorem rhs_col (i : S10000x1.Idx) (q : dot_S10000x128_S128x1_S10000x1_1_0_0_1_n_n.contr.Idx) :
    (dot_S10000x128_S128x1_S10000x1_1_0_0_1_n_n.rhsIdx i q 1).val = (i 1).val := by
  unfold DotDims.rhsIdx
  rw [dif_neg (show ¬(1 : Fin S128x1.rank) ∈ dot_S10000x128_S128x1_S10000x1_1_0_0_1_n_n.rhsBatch by decide), dif_pos (show (1 : Fin S128x1.rank) ∈ dot_S10000x128_S128x1_S10000x1_1_0_0_1_n_n.rhsNonContracting by decide)]
  rfl

/-- The matrix unit's product of a 10000×128 block with the 128×1 column, accumulated into the zero splat, is at
    entry (p, q) the sum over the 128 features k of l(p, k) · r(k, q): the contraction has one axis, of extent 128,
    and the sum over it is re-indexed by that axis's coordinate. -/
theorem matmul_block_apply (l : FVec Ideal S10000x128 .bf16) (r : FVec Ideal S128x1 .bf16) (p : Fin 10000) (q : Fin 1) :
    (matmul dot_S10000x128_S128x1_S10000x1_1_0_0_1_n_n none l r (constant S10000x1 .f32 0x00000000#32) : FVec Ideal S10000x1 .f32) (ix2 p q)
      = ∑ k : Fin 128, l (ix2 p k) * r (ix2 k q) := by
  refine (Ideal.matmul_constant_zero_apply dot_S10000x128_S128x1_S10000x1_1_0_0_1_n_n none l r (ix2 p q)).trans ?_
  rw [← Equiv.sum_comp (contrEquiv1 dot_S10000x128_S128x1_S10000x1_1_0_0_1_n_n 128 rfl rfl).symm]
  refine Finset.sum_congr rfl fun k _ => ?_
  have hk := contrEquiv1_symm_val dot_S10000x128_S128x1_S10000x1_1_0_0_1_n_n 128 rfl rfl k
  have el : dot_S10000x128_S128x1_S10000x1_1_0_0_1_n_n.lhsIdx (ix2 p q) ((contrEquiv1 dot_S10000x128_S128x1_S10000x1_1_0_0_1_n_n 128 rfl rfl).symm k) = ix2 p k :=
    funext fun a => Fin.ext (by
      match a with
      | ⟨0, _⟩ => exact lhs_row _ _
      | ⟨1, _⟩ => exact (lhs_col _ _).trans hk)
  have er : dot_S10000x128_S128x1_S10000x1_1_0_0_1_n_n.rhsIdx (ix2 p q) ((contrEquiv1 dot_S10000x128_S128x1_S10000x1_1_0_0_1_n_n 128 rfl rfl).symm k) = ix2 k q :=
    funext fun a => Fin.ext (by
      match a with
      | ⟨0, _⟩ => exact (rhs_row _ _).trans hk
      | ⟨1, _⟩ => exact rhs_col _ _)
  rw [el, er]

/-- The body's value on one block at entry (p, q): the block's row p rectified against the zero word, times the
    column, summed over the 128 features, plus the one bias. The format changes and the same-shape casts do nothing
    to an extended real; the bias is the 1×1 array's one entry whatever the row. -/
theorem head_block_apply (x : Vec Ideal S10000x128 .f32) (w : Vec Ideal S128x1 .f32) (b : Vec Ideal S1x1 .f32) (p : Fin 10000) (q : Fin 1) :
    k1_pay1 (F := Ideal) x w b (ix2 p q)
      = (∑ k : Fin 128, max (x (ix2 p k)) (Ideal.ofBits .f32 0x00000000#32) * w (ix2 k q)) + b (ix2 (0 : Fin 1) (0 : Fin 1)) := by
  unfold k1_pay1
  simp only [shapeCast_self]
  rw [addf_apply, matmul_block_apply, broadcastTo_1b_ab_apply]
  have hq : q = (0 : Fin 1) := Subsingleton.elim _ _
  subst hq
  rfl

/-! ## One grid point: the block it writes back -/

/-- The body loads and stores each staging buffer whole: at offset zero on both axes. -/
theorem zero_offsets : (![0, 0] : Fin 2 → Nat) = fun _ => 0 := funext fun a => by fin_cases a <;> rfl

/-- The windows' index maps, decided once over the ten grid points: the rows block of the aggregate moves with the
    output's rows block, every other block index is zero, and the output's row-block index is below ten. -/
theorem block_indices : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 9 ∧ win1_3.index t (1 : Fin 2) = 0 :=
  (by decide +kernel : ∀ t : Fin grid1.N, _)

/-- Every one of the ten row blocks is some grid point's. -/
theorem block_onto : ∀ n : Fin 10, ∃ t : Fin cfg1.N, win1_3.index t = ![n.val, 0] :=
  (by decide +kernel : ∀ n : Fin 10, ∃ t : Fin grid1.N, win1_3.index t = ![n.val, 0])

/-- Row p of row block n is a row of the array: n · 10000 + p is below 100000 when n is below ten. -/
theorem row_lt (n : Nat) (hn : n ≤ 9) (p : Fin 10000) : n * 10000 + p.val < 100000 := by have := p.isLt; omega

/-- The body's value on block n of the aggregate is block n of the head: entry (y₀, y₁) of the block is entry
    (n · 10000 + y₀, y₁) of the head, because row y₀ of the block is row n · 10000 + y₀ of the aggregate and the
    column and the bias are the whole arrays. -/
theorem head_block_eq (x : Vec Ideal S10000x128 .f32) (w : Vec Ideal S128x1 .f32) (b : Vec Ideal S1x1 .f32)
    (H : FVec Ideal S100000x128 .f32) (n : Nat) (hn : n ≤ 9)
    (hx : ∀ (p : Fin 10000) (k : Fin 128), x (ix2 p k) = H (ix2 (⟨n * 10000 + p.val, row_lt n hn p⟩ : Fin 100000) k))
    (y : S10000x1.Idx) (i : S100000x1.Idx) (hi0 : (i 0).val = n * 10000 + (y 0).val) (hi1 : (i 1).val = (y 1).val) :
    k1_pay1 (F := Ideal) x w b y = Cert.Gcn.head H w b i := by
  obtain ⟨p, q, rfl⟩ : ∃ (p : Fin 10000) (q : Fin 1), y = ix2 p q := ⟨y 0, y 1, eq_ix2 y⟩
  obtain ⟨p', q', rfl⟩ : ∃ (p' : Fin 100000) (q' : Fin 1), i = ix2 p' q' := ⟨i 0, i 1, eq_ix2 i⟩
  have hp : p' = ⟨n * 10000 + p.val, row_lt n hn p⟩ := Fin.ext hi0
  have hq : q' = q := Fin.ext hi1
  subst hp hq
  rw [head_block_apply, Cert.Gcn.head_apply]
  refine congrArg (· + b (ix2 (0 : Fin 1) (0 : Fin 1))) (Finset.sum_congr rfl fun k _ => ?_)
  rw [hx]

/-- WHAT GRID POINT t WRITES BACK to the head's array is block t of the head of the arrays as the region finds
    them. -/
theorem flushed_eq (V : (c : Dev nD) → (b : Ref sig .tc) → Buf (Elt Ideal) ((c : Thread nD τ).loc b)) (c : Dev nD) (t : Fin cfg1.N) :
    (dat1 (F := Ideal) V c).flushed 3 t
      = ((cfg1.win 3).blk t).view.read (Elt Ideal) (Cert.Gcn.head (V c main_v83) (V c main_v84) (V c main_v85)) := by
  show (cfg1.win 3).cut (grid1.coords t) ((dat1 V c).after 3 t) = _
  rw [after1_3]
  unfold out1_3
  rw [View.canon_unit_zero zero_offsets]
  simp only [View.ld_unit_zero (S := S10000x128) zero_offsets, View.ld_unit_zero (S := S128x1) zero_offsets, View.ld_unit_zero (S := S1x1) zero_offsets]
  obtain ⟨e0, e1, e2, e3, e4, e5, e6, e7⟩ := block_indices t
  have hw : (iblk1 V c 1 t : Vec Ideal S128x1 .f32) = V c main_v84 := by
    funext y
    unfold iblk1
    rw [View.read_apply]
    show V c main_v84 _ = V c main_v84 y
    refine congrArg _ (funext fun a => Fin.ext ?_)
    match a with
    | ⟨0, _⟩ => show win1_1.index t (0 : Fin 2) * 128 + 1 * (y 0).val = (y 0).val; omega
    | ⟨1, _⟩ => show win1_1.index t (1 : Fin 2) * 1 + 1 * (y 1).val = (y 1).val; omega
  have hb : (iblk1 V c 2 t : Vec Ideal S1x1 .f32) = V c main_v85 := by
    funext y
    unfold iblk1
    rw [View.read_apply]
    show V c main_v85 _ = V c main_v85 y
    refine congrArg _ (funext fun a => Fin.ext ?_)
    match a with
    | ⟨0, _⟩ => show win1_2.index t (0 : Fin 2) * 1 + 1 * (y 0).val = (y 0).val; omega
    | ⟨1, _⟩ => show win1_2.index t (1 : Fin 2) * 1 + 1 * (y 1).val = (y 1).val; omega
  have hx : ∀ (p : Fin 10000) (k : Fin 128), (iblk1 V c 0 t : Vec Ideal S10000x128 .f32) (ix2 p k)
      = (V c main_v83 : FVec Ideal S100000x128 .f32) (ix2 (⟨win1_3.index t (0 : Fin 2) * 10000 + p.val, row_lt _ e6 p⟩ : Fin 100000) k) := by
    intro p k
    unfold iblk1
    rw [View.read_apply]
    show V c main_v83 _ = V c main_v83 _
    refine congrArg _ (funext fun a => Fin.ext ?_)
    match a with
    | ⟨0, _⟩ => show win1_0.index t (0 : Fin 2) * 10000 + 1 * p.val = win1_3.index t (0 : Fin 2) * 10000 + p.val; omega
    | ⟨1, _⟩ => show win1_0.index t (1 : Fin 2) * 128 + 1 * k.val = k.val; omega
  rw [hw, hb]
  funext j
  show k1_pay1 (iblk1 V c 0 t) (V c main_v84) (V c main_v85) ((cfg1.win 3).xinj (grid1.coords t) j)
    = Cert.Gcn.head (V c main_v83) (V c main_v84) (V c main_v85) (((cfg1.win 3).blk t).view.emb j)
  refine head_block_eq _ _ _ _ (win1_3.index t (0 : Fin 2)) e6 hx _ _ ?_ ?_
  · show win1_3.index t (0 : Fin 2) * 10000 + 1 * (j 0).val = win1_3.index t (0 : Fin 2) * 10000 + (j 0).val; omega
  · show win1_3.index t (1 : Fin 2) * 1 + 1 * (j 1).val = (j 1).val; omega

/-! ## The ten blocks cover the array -/

/-- An index of the head's array is in point t's block iff each coordinate is in the block's range on its axis. -/
theorem mem_block (t : Fin cfg1.N) (i : S100000x1.Idx) :
    i ∈ ((cfg1.win 3).blk t).view.set ↔ ∀ a : Fin 2, win1_3.index t a * S10000x1.size a ≤ (i a).val ∧ (i a).val < win1_3.index t a * S10000x1.size a + S10000x1.size a := by
  show i ∈ ((View.whole main_v86).slice (win1_3.rect t)).set ↔ _
  rw [View.set_slice_whole, Rect.mem_set_unit]
  exact Iff.rfl

/-- Row r of the array lies in the block of the grid point whose block index is r / 10000, and every grid point
    writes its block back: the ten blocks of 10000 rows cover the 100000 rows. -/
theorem covered (i : S100000x1.Idx) :
    ∃ t : Fin cfg1.N, (cfg1.win 3).flush t = true ∧ i ∈ ((cfg1.win 3).blk t).view.set := by
  have hi0 : (i 0).val < 100000 := (i 0).isLt
  have hi1 : (i 1).val < 1 := (i 1).isLt
  obtain ⟨t, ht⟩ := block_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 1 ≤ (i 1).val ∧ (i 1).val < win1_3.index t (1 : Fin 2) * 1 + 1; omega

/-! ## The array -/

/-- AFTER THE REGION, whatever the buffers held at its entry, the head's array is the head of the entry contents
    of the aggregate, the column and the bias. -/
theorem head_array (V : (c : Dev nD) → (b : Ref sig .tc) → Buf (Elt Ideal) ((c : Thread nD τ).loc b)) (c : Dev nD) :
    (dat1 (F := Ideal) V c).arrAt 3 cfg1.N = Cert.Gcn.head (V c main_v83) (V c main_v84) (V c main_v85) :=
  (dat1 (F := Ideal) V c).arrAt_eq_of_cover 3 (Cert.Gcn.head (V c main_v83) (V c main_v84) (V c main_v85))
    (fun t _ => flushed_eq V c t) covered

end Cert.KernelIdeal.HeadArray

end
-- ==== Proof.KernelValue.lean ====
/-
  The kernel's result, read back from the last boundary of its run.

  The run ends with every buffer at the contents W7 (the fold of the frame proof).  At the result buffer that is
  the last reshape of W6 at the head region's result array; a region leaves its windows' arrays at what its
  write-backs make of them, and the head's blocks cover its array, so that array is `head` of the region's three
  inputs as it found them (W5).  Those are the aggregation of W2 at the projection's result array, the
  transposed weight and the reshaped bias; the projection's blocks cover its array, so W2 there is `proj` of
  the node features and the evolved weight as the projection found them (W1), which are the launch memory's
  features and the reference's evolved-weight stage of the launch memory's weights.  No region and no host
  operation writes an argument, so wherever an argument is read it is the launch memory's.
-/
import proofs.«137513_j44452911514152_1_alg».proof.Proof.Gen.KernelIdeal.Frame
import proofs.«137513_j44452911514152_1_alg».proof.Proof.StretchesMid
import proofs.«137513_j44452911514152_1_alg».proof.Proof.Spec
import proofs.«137513_j44452911514152_1_alg».proof.Proof.ProjArray
import proofs.«137513_j44452911514152_1_alg».proof.Proof.HeadArray

set_option maxRecDepth 16384

noncomputable section

namespace Cert.KernelIdeal.ResultValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- An argument the first stretch does not write is, at the projection's exit, what the launch memory holds:
    the region keeps every buffer that is not one of its windows' arrays. -/
theorem edges_kept : W2 m ρ c (Proc.devRef .tc main_arg1) = m ((c : Thread nD τ).loc main_arg1) :=
  (W2_of_ne m ρ c main_arg1 (by decide)).trans (Cert.Gcn.stretch_weight_keeps_arg1 (W0 m ρ c))
theorem edge_weights_kept : W2 m ρ c (Proc.devRef .tc main_arg2) = m ((c : Thread nD τ).loc main_arg2) :=
  (W2_of_ne m ρ c main_arg2 (by decide)).trans (Cert.Gcn.stretch_weight_keeps_arg2 (W0 m ρ c))
theorem head_weight_kept : W2 m ρ c (Proc.devRef .tc main_arg8) = m ((c : Thread nD τ).loc main_arg8) :=
  (W2_of_ne m ρ c main_arg8 (by decide)).trans (Cert.Gcn.stretch_weight_keeps_arg8 (W0 m ρ c))
theorem head_bias_kept : W2 m ρ c (Proc.devRef .tc main_arg9) = m ((c : Thread nD τ).loc main_arg9) :=
  (W2_of_ne m ρ c main_arg9 (by decide)).trans (Cert.Gcn.stretch_weight_keeps_arg9 (W0 m ρ c))

/-- At the projection's exit its result array holds the projection of the node features by the evolved weight:
    the region's blocks cover the array, its inputs are the features as launched and the weight the first
    stretch left. -/
theorem projected : W2 m ρ c (Proc.devRef .tc main_v38) = Cert.Gcn.proj (m ((c : Thread nD τ).loc main_arg0)) (Cert.ReferenceIdeal.Read.val_main_v37 (F := Ideal) (m ((c : Thread nD τ).loc main_arg3)) (m ((c : Thread nD τ).loc main_arg4)) (m ((c : Thread nD τ).loc main_arg5)) (m ((c : Thread nD τ).loc main_arg6)) (m ((c : Thread nD τ).loc main_arg7))) :=
  ((W2_arr m ρ c 2).trans (Cert.KernelIdeal.ProjArray.proj_array (V1 m ρ) c)).trans
    (congrArg₂ Cert.Gcn.proj (Cert.Gcn.stretch_weight_features (W0 m ρ c)) (Cert.Gcn.stretch_weight (W0 m ρ c)))

/-- At the head's entry its first input holds the aggregation of the projected features over the graph … -/
theorem aggregated : V5 m ρ c main_v83 = Cert.Gcn.aggregate (Cert.Gcn.proj (m ((c : Thread nD τ).loc main_arg0)) (Cert.ReferenceIdeal.Read.val_main_v37 (F := Ideal) (m ((c : Thread nD τ).loc main_arg3)) (m ((c : Thread nD τ).loc main_arg4)) (m ((c : Thread nD τ).loc main_arg5)) (m ((c : Thread nD τ).loc main_arg6)) (m ((c : Thread nD τ).loc main_arg7)))) (m ((c : Thread nD τ).loc main_arg1)) (m ((c : Thread nD τ).loc main_arg2)) :=
  (Cert.Gcn.stretch_aggregate (W2 m ρ c)).trans (by rw [projected m ρ c, edges_kept m ρ c, edge_weights_kept m ρ c])

/-- … its second the head's weight as a column … -/
theorem column : V5 m ρ c main_v84 = Cert.ReferenceIdeal.Read.val_main_v85 (F := Ideal) (m ((c : Thread nD τ).loc main_arg8)) :=
  (Cert.Gcn.stretch_column (W2 m ρ c)).trans (by rw [head_weight_kept m ρ c])

/-- … and its third the bias as a 1 × 1 array. -/
theorem bias : V5 m ρ c main_v85 = shapeCast S1x1 (m ((c : Thread nD τ).loc main_arg9)) Facts₀.shapeCasts_S1_S1x1 :=
  (Cert.Gcn.stretch_bias (W2 m ρ c)).trans (by rw [head_bias_kept m ρ c])

/-- The last boundary's contents at the result buffer: the head of the aggregated projection, its unit axis
    dropped.  The head region's blocks cover its result array, and the last stretch reshapes it. -/
theorem result_value : W7 m ρ c (Proc.devRef .tc main_v87)
    = shapeCast S100000 (Cert.Gcn.head (Cert.Gcn.aggregate (Cert.Gcn.proj (m ((c : Thread nD τ).loc main_arg0)) (Cert.ReferenceIdeal.Read.val_main_v37 (F := Ideal) (m ((c : Thread nD τ).loc main_arg3)) (m ((c : Thread nD τ).loc main_arg4)) (m ((c : Thread nD τ).loc main_arg5)) (m ((c : Thread nD τ).loc main_arg6)) (m ((c : Thread nD τ).loc main_arg7)))) (m ((c : Thread nD τ).loc main_arg1)) (m ((c : Thread nD τ).loc main_arg2))) (Cert.ReferenceIdeal.Read.val_main_v85 (F := Ideal) (m ((c : Thread nD τ).loc main_arg8))) (shapeCast S1x1 (m ((c : Thread nD τ).loc main_arg9)) Facts₀.shapeCasts_S1_S1x1)) Facts₀.shapeCasts_S100000x1_S100000 :=
  (Cert.Gcn.stretch_result (W6 m ρ c)).trans (congrArg (fun a => shapeCast S100000 a Facts₀.shapeCasts_S100000x1_S100000)
    (((W6_arr m ρ c 3).trans (Cert.KernelIdeal.HeadArray.head_array (V5 m ρ) c)).trans
      (by rw [aggregated m ρ c, column m ρ c, bias m ρ c])))

end Cert.KernelIdeal.ResultValue

end
-- ==== Proof.RefValue.lean ====
/-
  The reference's two products are the specification's sums.

  The reference computes the projection and the head as whole-array products on the host.  Read at an entry,
  a host product with one contracted axis is the sum over that axis of the products of the operands' entries:
  entry (p, q) of x · W is the sum over k of x(p, k) · W(k, q), which is `proj`; and entry (p, 0) of the head is
  the sum over k of max(h(p, k), 0) · w(0, k) — the reference transposes the 1 × 128 weight into a column first —
  plus the bias, which is `head` of the rectified aggregate, the transposed weight and any 1 × 1 array holding
  the bias.  The aggregate h and the evolved weight W enter only as arrays: they are never opened.
-/
import proofs.«137513_j44452911514152_1_alg».proof.Proof.Gen.ReferenceIdeal.Read
import proofs.«137513_j44452911514152_1_alg».proof.Proof.Spec

noncomputable section

namespace Cert.Gcn

open Idealize.ShloMosaic Idealize.ShloMosaic.ValueIdx
open Cert.ReferenceIdeal Cert.ReferenceIdeal.Read

/-- The reference's projection x · W, entry by entry, is `proj` of the features and the evolved weight. -/
theorem ref_proj (x0 : (⟨S100000x128, .f32⟩ : BufTy).Contents (Elt Ideal)) (x3 : (⟨S128x128, .f32⟩ : BufTy).Contents (Elt Ideal))
    (x4 x5 : (⟨S384x128, .f32⟩ : BufTy).Contents (Elt Ideal)) (x6 x7 : (⟨S384, .f32⟩ : BufTy).Contents (Elt Ideal)) :
    val_main_v70 (F := Ideal) x0 x3 x4 x5 x6 x7 = proj x0 (val_main_v37 (F := Ideal) x3 x4 x5 x6 x7) := by
  funext i
  obtain ⟨p, q, rfl⟩ : ∃ (p : Fin 100000) (q : Fin 128), i = ix2 p q := ⟨i 0, i 1, eq_ix2 i⟩
  rw [val_main_v70_apply, proj_apply]
  refine Finset.sum_congr rfl fun k _ => ?_
  have el : lidx_main_v70 (ix2 p q) k = ix2 p k := funext fun a => Fin.ext (by
    match a with
    | ⟨0, _⟩ => rfl
    | ⟨1, _⟩ => rfl)
  have er : ridx_main_v70 (ix2 p q) k = ix2 k q := funext fun a => Fin.ext (by
    match a with
    | ⟨0, _⟩ => rfl
    | ⟨1, _⟩ => rfl)
  rw [el, er]

/-- The reference's head before its final reshape, entry by entry, is `head` of its aggregate, its transposed
    weight and any 1 × 1 array `b` holding the bias. -/
theorem ref_head (x0 : (⟨S100000x128, .f32⟩ : BufTy).Contents (Elt Ideal)) (x1 : (⟨S2x1600000, .i32⟩ : BufTy).Contents (Elt Ideal))
    (x2 : (⟨S1600000, .f32⟩ : BufTy).Contents (Elt Ideal)) (x3 : (⟨S128x128, .f32⟩ : BufTy).Contents (Elt Ideal))
    (x4 x5 : (⟨S384x128, .f32⟩ : BufTy).Contents (Elt Ideal)) (x6 x7 : (⟨S384, .f32⟩ : BufTy).Contents (Elt Ideal))
    (x8 : (⟨S1x128, .f32⟩ : BufTy).Contents (Elt Ideal)) (x9 : (⟨S1, .f32⟩ : BufTy).Contents (Elt Ideal))
    (b : FVec Ideal ⟨2, ![1, 1]⟩ .f32) (hb : b (ix2 (0 : Fin 1) (0 : Fin 1)) = x9 (ix1 (0 : Fin 1))) :
    val_main_v89 (F := Ideal) x0 x1 x2 x3 x4 x5 x6 x7 x8 x9
      = head (val_main_v83 (F := Ideal) x0 x1 x2 x3 x4 x5 x6 x7) (val_main_v85 (F := Ideal) x8) b := by
  funext i
  obtain ⟨p, q, rfl⟩ : ∃ (p : Fin 100000) (q : Fin 1), i = ix2 p q := ⟨i 0, i 1, eq_ix2 i⟩
  rw [val_main_v89_apply, val_main_v86_apply, val_main_v88_apply, val_main_v87_apply, head_apply, hb]
  have e9 : idx_main_v87 (idx_main_v88 (ix2 p q)) = ix1 (0 : Fin 1) := funext fun a => Fin.ext (by
    match a with
    | ⟨0, _⟩ => rfl)
  rw [e9]
  show (∑ k : Fin 128, _) + x9 (ix1 (0 : Fin 1)) = _
  refine congrArg (· + x9 (ix1 (0 : Fin 1))) (Finset.sum_congr rfl fun k _ => ?_)
  have el : lidx_main_v86 (ix2 p q) k = ix2 p k := funext fun a => Fin.ext (by
    match a with
    | ⟨0, _⟩ => rfl
    | ⟨1, _⟩ => rfl)
  have er : ridx_main_v86 (ix2 p q) k = ix2 k q := funext fun a => Fin.ext (by
    match a with
    | ⟨0, _⟩ => rfl
    | ⟨1, _⟩ => rfl)
  rw [el, er, val_main_v84_apply, val_main_call1_v0_apply, val_main_call1_cst_apply]
  rfl

end Cert.Gcn

end
-- ==== Proof.RefResult.lean ====
/-
  The reference's result, in the words the kernel's result is stated in.

  The reference's result is its head with the unit axis dropped; its head is `head` of its aggregate, its
  transposed weight and the bias; its aggregate is `aggregate` of its projection; its projection is `proj` of
  the features and the evolved weight.  Chained, the reference's result is one expression in the specification's
  two products and the shared aggregation, of the ten arguments.
-/
import proofs.«137513_j44452911514152_1_alg».proof.Proof.RefValue
import proofs.«137513_j44452911514152_1_alg».proof.Proof.Stretches

noncomputable section

namespace Cert.Gcn

open Idealize.ShloMosaic Idealize.ShloMosaic.ValueIdx
open Cert.ReferenceIdeal Cert.ReferenceIdeal.Read

/-- The reference's result as the head of the aggregated projection, its unit axis dropped, for any 1 × 1
    array `b` holding the bias. -/
theorem ref_result (x0 : (⟨S100000x128, .f32⟩ : BufTy).Contents (Elt Ideal)) (x1 : (⟨S2x1600000, .i32⟩ : BufTy).Contents (Elt Ideal))
    (x2 : (⟨S1600000, .f32⟩ : BufTy).Contents (Elt Ideal)) (x3 : (⟨S128x128, .f32⟩ : BufTy).Contents (Elt Ideal))
    (x4 x5 : (⟨S384x128, .f32⟩ : BufTy).Contents (Elt Ideal)) (x6 x7 : (⟨S384, .f32⟩ : BufTy).Contents (Elt Ideal))
    (x8 : (⟨S1x128, .f32⟩ : BufTy).Contents (Elt Ideal)) (x9 : (⟨S1, .f32⟩ : BufTy).Contents (Elt Ideal))
    (b : FVec Ideal ⟨2, ![1, 1]⟩ .f32) (hb : b (ix2 (0 : Fin 1) (0 : Fin 1)) = x9 (ix1 (0 : Fin 1))) :
    val_main_v90 (F := Ideal) x0 x1 x2 x3 x4 x5 x6 x7 x8 x9
      = shapeCast S100000 (head (aggregate (proj x0 (val_main_v37 (F := Ideal) x3 x4 x5 x6 x7)) x1 x2) (val_main_v85 (F := Ideal) x8) b)
          Facts₀.shapeCasts_S100000x1_S100000 := by
  unfold val_main_v90
  rw [ref_head x0 x1 x2 x3 x4 x5 x6 x7 x8 x9 b hb, ref_aggregate, ref_proj]

end Cert.Gcn

end
-- ==== Proof.lean ====
/-
  A graph network on 100000 nodes with 128 features: the kernel against its reference, over the extended reals.

  Both programs evolve a 128 × 128 weight W by one step of a gated recurrent unit, project the node features,
  xw = x · W, normalize the graph's edges by the degrees of their end points, sum the weighted projected rows of
  the sources into the targets, h, and end in a linear head on the rectified h: out(p) = Σ_k max(h(p, k), 0) ·
  w(0, k) + b.  The reference does all of it on the host.  The kernel runs the two dense products in two
  pipelined regions, each over ten blocks of 10000 rows through the matrix unit (its operands rounded to bf16
  on the way in, which is the identity over the extended reals), and everything else as the same host text.

  So the two programs differ only in how the two products are computed, and over the extended reals a product
  into a zero accumulator, block by block, and one whole host product are the same sums over the 128 features,
  entry by entry: no law beyond that is used, and no entry needs to be finite.  The kernel's result is read off
  its run (the result buffer at the last boundary's contents), back through the head region (its blocks cover
  the result array), the host stretches (the reference's own stages), and the projection region; the
  reference's result is read off its run through its stages.  Both are the same expression of the ten arguments.
  The idealization of the kernel rewrote nothing, so it preserves the kernel trivially.
-/
import proofs.«137513_j44452911514152_1_alg».proof.Defs
import proofs.«137513_j44452911514152_1_alg».proof.Proof.Gen.Kernel
import proofs.«137513_j44452911514152_1_alg».proof.Proof.Gen.Kernel.Frame
import proofs.«137513_j44452911514152_1_alg».proof.Proof.Gen.KernelIdeal
import proofs.«137513_j44452911514152_1_alg».proof.Proof.Gen.KernelIdeal.Frame
import proofs.«137513_j44452911514152_1_alg».proof.Proof.Gen.ReferenceIdeal
import proofs.«137513_j44452911514152_1_alg».proof.Proof.Gen.ReferenceIdeal.Run
import proofs.«137513_j44452911514152_1_alg».proof.Proof.Gen.ReferenceIdeal.Read
import proofs.«137513_j44452911514152_1_alg».proof.Proof.Gen.Pre_finite_inputs
import proofs.«137513_j44452911514152_1_alg».proof.Proof.ResultRun
import proofs.«137513_j44452911514152_1_alg».proof.Proof.KernelValue
import proofs.«137513_j44452911514152_1_alg».proof.Proof.RefResult
import Idealize.ShloMosaic.Adequacy
import Idealize.ShloMosaic.Init

noncomputable section

namespace Cert.Proof

open Idealize.ShloMosaic Idealize.ShloMosaic.TcCoe Idealize.ShloMosaic.ValueIdx Idealize.SL.Sem

/-- The kernel as printed runs and leaves its arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference has no region: its run, with the result dropped, is its frame. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- The 1 × 1 array the kernel reshapes the bias into holds the bias. -/
theorem bias_entry (x9 : FVec Ideal Cert.KernelIdeal.S1 .f32) :
    shapeCast Cert.KernelIdeal.S1x1 x9 Cert.KernelIdeal.Facts₀.shapeCasts_S1_S1x1 (ix2 (0 : Fin 1) (0 : Fin 1)) = x9 (ix1 (0 : Fin 1)) :=
  shapeCast_apply x9 Cert.KernelIdeal.Facts₀.shapeCasts_S1_S1x1 (ix2 (0 : Fin 1) (0 : Fin 1)) (ix1 (0 : Fin 1)) (by
    rw [Shape.rowMajor_val_one, Shape.rowMajor_val_two]; rfl)

/-- From memories that agree on the ten arguments both idealized programs run, and end with the same results:
    the head of the aggregated projection, as one expression of the arguments. -/
theorem algebraic : Cert.algebraic_KernelIdeal_ReferenceIdeal := by
  intro m ρ m' ρ' _ hagree
  refine ⟨fun c => shapeCast Cert.KernelIdeal.S100000
      (Cert.Gcn.head
        (Cert.Gcn.aggregate
          (Cert.Gcn.proj (m ((c.tc : Thread Cert.KernelIdeal.nD Cert.KernelIdeal.τ).loc Cert.KernelIdeal.main_arg0))
            (Cert.ReferenceIdeal.Read.val_main_v37 (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))))
          (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
        (Cert.ReferenceIdeal.Read.val_main_v85 (F := Ideal) (m ((c.tc : Thread Cert.KernelIdeal.nD Cert.KernelIdeal.τ).loc Cert.KernelIdeal.main_arg8)))
        (shapeCast Cert.KernelIdeal.S1x1 (m ((c.tc : Thread Cert.KernelIdeal.nD Cert.KernelIdeal.τ).loc Cert.KernelIdeal.main_arg9)) Cert.KernelIdeal.Facts₀.shapeCasts_S1_S1x1))
      Cert.KernelIdeal.Facts₀.shapeCasts_S100000x1_S100000, ?_, ?_⟩
  · exact (θ_run Cert.KernelIdeal.defs _ _).mono
      (fun r h c => ⟨(h c).1.trans (Cert.KernelIdeal.ResultValue.result_value m ρ c), (h c).2⟩)
      (Cert.KernelIdeal.ResultRun.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v90_eq, h0, h1, h2, h3, h4, h5, h6, h7, h8, h9]
    exact Cert.Gcn.ref_result _ _ _ _ _ _ _ _ _ _ _ (bias_entry _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
